-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1408 : Shape := ⟨2, ![65536, 1408]⟩
abbrev S_ : Shape := ⟨0, ![]⟩

class Facts : Prop where
  bcast_S_S65536x1408 : S_.BroadcastsInDim S65536x1408 (![] : Fin 0 → Fin S65536x1408.rank)
  reducesTo_S65536x1408_S_d0_1 : S65536x1408.ReducesTo [0, 1] S_
  h_S_ : 0 < S_.numel

variable [Facts]

def fn {F : FTy → Type} [FloatOps F] (main_arg0 : FVec F S65536x1408 .f32) : IVec S_ 1 :=
  let main_v0 : FVec F S65536x1408 .f32 := Host.absf main_arg0
  let main_cst : FVec F S_ .f32 := constant S_ .f32 0x7F800000#32
  let main_v1 : FVec F S65536x1408 .f32 := broadcastInDim S65536x1408 ![] bcast_S_S65536x1408 main_cst
  let main_v2 : IVec S65536x1408 1 := cmpf .olt main_v0 main_v1
  let main_c : IVec S_ 1 := constantI S_ 1 1#1
  let main_v3 : IVec S_ 1 := (fun x v => Host.reduce IntOp.andi x v reducesTo_S65536x1408_S_d0_1 h_S_) main_v2 main_c
  main_v3
-- ==== Kernel.lean ====
abbrev S65536x1408 : Shape := ⟨2, ![65536, 1408]⟩
abbrev S65536x1184 : Shape := ⟨2, ![65536, 1184]⟩
abbrev S2048x1408 : Shape := ⟨2, ![2048, 1408]⟩
abbrev S2048x1184 : Shape := ⟨2, ![2048, 1184]⟩
abbrev S2048x224 : Shape := ⟨2, ![2048, 224]⟩
abbrev S2048x256 : Shape := ⟨2, ![2048, 256]⟩
abbrev S2048x384 : Shape := ⟨2, ![2048, 384]⟩
abbrev S2048x128 : Shape := ⟨2, ![2048, 128]⟩
abbrev S2048x128x3 : Shape := ⟨3, ![2048, 128, 3]⟩
abbrev S2048x128x1 : Shape := ⟨3, ![2048, 128, 1]⟩
abbrev S2048x320 : Shape := ⟨2, ![2048, 320]⟩
abbrev S2048x64 : Shape := ⟨2, ![2048, 64]⟩
abbrev S2048x64x5 : Shape := ⟨3, ![2048, 64, 5]⟩
abbrev S2048x64x1 : Shape := ⟨3, ![2048, 64, 1]⟩
abbrev S2048x32 : Shape := ⟨2, ![2048, 32]⟩
abbrev S2048x32x7 : Shape := ⟨3, ![2048, 32, 7]⟩
abbrev S2048x32x1 : Shape := ⟨3, ![2048, 32, 1]⟩

abbrev nBuf : Space → Nat
  | .hbm => 2
  | .vmem => 4
  | .smem => 0
  | _ => 0

abbrev bufTy : (tb : Table) → Fin (tcTables nBuf tb) → BufTy
  | .hbm, ⟨0, _⟩ => ⟨S65536x1408, .f32⟩
  | .hbm, ⟨1, _⟩ => ⟨S65536x1184, .f32⟩
  | .local _ .vmem, ⟨0, _⟩ => ⟨S2048x1408, .f32⟩
  | .local _ .vmem, ⟨1, _⟩ => ⟨S2048x1408, .f32⟩
  | .local _ .vmem, ⟨2, _⟩ => ⟨S2048x1184, .f32⟩
  | .local _ .vmem, ⟨3, _⟩ => ⟨S2048x1184, .f32⟩
  | _, _ => ⟨S65536x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x1408_S2048x1408_0_0 : ∀ a, (![0, 0] : Fin 2 → Nat) a + S2048x1408.size a ≤ S2048x1408.size a
  h_S2048x1408 : 0 < S2048x1408.numel
  slices_S2048x1408_o0_1184_S2048x224 : S2048x1408.Slices ![0, 1184] S2048x224
  slices_S2048x1408_o0_0_S2048x256 : S2048x1408.Slices ![0, 0] S2048x256
  slices_S2048x1408_o0_256_S2048x384 : S2048x1408.Slices ![0, 256] S2048x384
  slices_S2048x224_o0_0_S2048x128 : S2048x224.Slices ![0, 0] S2048x128
  shapeCasts_S2048x384_S2048x128x3 : S2048x384.ShapeCasts S2048x128x3
  shapeCasts_S2048x128_S2048x128x1 : S2048x128.ShapeCasts S2048x128x1
  broadcasts_S2048x128x1_S2048x128x3 : S2048x128x1.Broadcasts S2048x128x3
  shapeCasts_S2048x128x3_S2048x384 : S2048x128x3.ShapeCasts S2048x384
  slices_S2048x1408_o0_640_S2048x320 : S2048x1408.Slices ![0, 640] S2048x320
  slices_S2048x224_o0_128_S2048x64 : S2048x224.Slices ![0, 128] S2048x64
  shapeCasts_S2048x320_S2048x64x5 : S2048x320.ShapeCasts S2048x64x5
  shapeCasts_S2048x64_S2048x64x1 : S2048x64.ShapeCasts S2048x64x1
  broadcasts_S2048x64x1_S2048x64x5 : S2048x64x1.Broadcasts S2048x64x5
  shapeCasts_S2048x64x5_S2048x320 : S2048x64x5.ShapeCasts S2048x320
  slices_S2048x1408_o0_960_S2048x224 : S2048x1408.Slices ![0, 960] S2048x224
  slices_S2048x224_o0_192_S2048x32 : S2048x224.Slices ![0, 192] S2048x32
  shapeCasts_S2048x224_S2048x32x7 : S2048x224.ShapeCasts S2048x32x7
  shapeCasts_S2048x32_S2048x32x1 : S2048x32.ShapeCasts S2048x32x1
  broadcasts_S2048x32x1_S2048x32x7 : S2048x32x1.Broadcasts S2048x32x7
  shapeCasts_S2048x32x7_S2048x224 : S2048x32x7.ShapeCasts S2048x224
  concatenates_S2048x256_S2048x384_S2048x320_S2048x224_S2048x1184_d1 : Shape.Concatenates [S2048x256, S2048x384, S2048x320, S2048x224] S2048x1184 1
  inb_S2048x1184_S2048x1184_0_0 : ∀ a, (![0, 0] : Fin 2 → Nat) a + S2048x1184.size a ≤ S2048x1184.size a
  h_S2048x1184 : 0 < S2048x1184.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1408.size a ≤ S65536x1408.size a
  hwx0_0 : ∀ i : grid0.Coords, EltTy.bits .f32 = 32 ∨ (Rect.block (s := S65536x1408) S2048x1408.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1184.size a ≤ S65536x1184.size a
  hwx0_1 : ∀ i : grid0.Coords, EltTy.bits .f32 = 32 ∨ (Rect.block (s := S65536x1184) S2048x1184.size (cc0_transform_1 i) (hinb0_1 i)).WholeWords (EltTy.packing .f32)

variable [Facts₀]

abbrev win0_0 : Pipeline.Window sig grid0 :=
  Pipeline.Window.ofSpec (Memref.whole main_arg0) S2048x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1184.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1408 : Shape := ⟨2, ![65536, 1408]⟩
abbrev S65536x224 : Shape := ⟨2, ![65536, 224]⟩
abbrev S65536x256 : Shape := ⟨2, ![65536, 256]⟩
abbrev S_ : Shape := ⟨0, ![]⟩
abbrev S65536x384 : Shape := ⟨2, ![65536, 384]⟩
abbrev S65536x128 : Shape := ⟨2, ![65536, 128]⟩
abbrev S65536x128x3 : Shape := ⟨3, ![65536, 128, 3]⟩
abbrev S65536x128x1 : Shape := ⟨3, ![65536, 128, 1]⟩
abbrev S65536x320 : Shape := ⟨2, ![65536, 320]⟩
abbrev S65536x64 : Shape := ⟨2, ![65536, 64]⟩
abbrev S65536x64x5 : Shape := ⟨3, ![65536, 64, 5]⟩
abbrev S65536x64x1 : Shape := ⟨3, ![65536, 64, 1]⟩
abbrev S65536x32 : Shape := ⟨2, ![65536, 32]⟩
abbrev S65536x32x7 : Shape := ⟨3, ![65536, 32, 7]⟩
abbrev S65536x32x1 : Shape := ⟨3, ![65536, 32, 1]⟩
abbrev S65536x1184 : Shape := ⟨2, ![65536, 1184]⟩

abbrev nBuf : Space → Nat
  | .hbm => 52
  | .vmem => 0
  | .smem => 0
  | _ => 0

abbrev bufTy : (tb : Table) → Fin (tcTables nBuf tb) → BufTy
  | .hbm, ⟨0, _⟩ => ⟨S65536x1408, .f32⟩
  | .hbm, ⟨1, _⟩ => ⟨S65536x224, .f32⟩
  | .hbm, ⟨2, _⟩ => ⟨S65536x256, .f32⟩
  | .hbm, ⟨3, _⟩ => ⟨S_, .f32⟩
  | .hbm, ⟨4, _⟩ => ⟨S65536x256, .f32⟩
  | .hbm, ⟨5, _⟩ => ⟨S65536x256, .f32⟩
  | .hbm, ⟨6, _⟩ => ⟨S65536x384, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S_, .f32⟩
  | .hbm, ⟨11, _⟩ => ⟨S65536x128, .f32⟩
  | .hbm, ⟨12, _⟩ => ⟨S65536x128, .f32⟩
  | .hbm, ⟨13, _⟩ => ⟨S_, .f32⟩
  | .hbm, ⟨14, _⟩ => ⟨S65536x128, .f32⟩
  | .hbm, ⟨15, _⟩ => ⟨S65536x128, .f32⟩
  | .hbm, ⟨16, _⟩ => ⟨S65536x128x3, .f32⟩
  | .hbm, ⟨17, _⟩ => ⟨S65536x128x1, .f32⟩
  | .hbm, ⟨18, _⟩ => ⟨S65536x128x3, .f32⟩
  | .hbm, ⟨19, _⟩ => ⟨S65536x128x3, .f32⟩
  | .hbm, ⟨20, _⟩ => ⟨S65536x384, .f32⟩
  | .hbm, ⟨21, _⟩ => ⟨S65536x320, .f32⟩
  | .hbm, ⟨22, _⟩ => ⟨S65536x64, .f32⟩
  | .hbm, ⟨23, _⟩ => ⟨S65536x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536x64, .f32⟩
  | .hbm, ⟨30, _⟩ => ⟨S65536x64, .f32⟩
  | .hbm, ⟨31, _⟩ => ⟨S65536x64x5, .f32⟩
  | .hbm, ⟨32, _⟩ => ⟨S65536x64x1, .f32⟩
  | .hbm, ⟨33, _⟩ => ⟨S65536x64x5, .f32⟩
  | .hbm, ⟨34, _⟩ => ⟨S65536x64x5, .f32⟩
  | .hbm, ⟨35, _⟩ => ⟨S65536x320, .f32⟩
  | .hbm, ⟨36, _⟩ => ⟨S65536x224, .f32⟩
  | .hbm, ⟨37, _⟩ => ⟨S65536x32, .f32⟩
  | .hbm, ⟨38, _⟩ => ⟨S65536x32, .f32⟩
  | .hbm, ⟨39, _⟩ => ⟨S65536x32, .f32⟩
  | .hbm, ⟨40, _⟩ => ⟨S_, .f32⟩
  | .hbm, ⟨41, _⟩ => ⟨S65536x32, .f32⟩
  | .hbm, ⟨42, _⟩ => ⟨S65536x32, .f32⟩
  | .hbm, ⟨43, _⟩ => ⟨S_, .f32⟩
  | .hbm, ⟨44, _⟩ => ⟨S65536x32, .f32⟩
  | .hbm, ⟨45, _⟩ => ⟨S65536x32, .f32⟩
  | .hbm, ⟨46, _⟩ => ⟨S65536x32x7, .f32⟩
  | .hbm, ⟨47, _⟩ => ⟨S65536x32x1, .f32⟩
  | .hbm, ⟨48, _⟩ => ⟨S65536x32x7, .f32⟩
  | .hbm, ⟨49, _⟩ => ⟨S65536x32x7, .f32⟩
  | .hbm, ⟨50, _⟩ => ⟨S65536x224, .f32⟩
  | .hbm, ⟨51, _⟩ => ⟨S65536x1184, .f32⟩
  | _, _ => ⟨S65536x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_cst : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]

class Facts₀ : Prop where
  slices_S65536x1408_S65536x224_0_1184 : S65536x1408.Slices ![0, 1184] S65536x224
  slices_S65536x1408_S65536x256_0_0 : S65536x1408.Slices ![0, 0] S65536x256
  bcast_S_S65536x256 : S_.BroadcastsInDim S65536x256 (![] : Fin 0 → Fin S65536x256.rank)
  slices_S65536x1408_S65536x384_0_256 : S65536x1408.Slices ![0, 256] S65536x384
  slices_S65536x224_S65536x128_0_0 : S65536x224.Slices ![0, 0] S65536x128
  bcast_S_S65536x128 : S_.BroadcastsInDim S65536x128 (![] : Fin 0 → Fin S65536x128.rank)
  shapeCasts_S65536x384_S65536x128x3 : S65536x384.ShapeCasts S65536x128x3
  bcast_S65536x128_S65536x128x1_0_1 : S65536x128.BroadcastsInDim S65536x128x1 (![0, 1] : Fin 2 → Fin S65536x128x1.rank)
  bcast_S65536x128x1_S65536x128x3_0_1_2 : S65536x128x1.BroadcastsInDim S65536x128x3 (![0, 1, 2] : Fin 3 → Fin S65536x128x3.rank)
  shapeCasts_S65536x128x3_S65536x384 : S65536x128x3.ShapeCasts S65536x384
  slices_S65536x1408_S65536x320_0_640 : S65536x1408.Slices ![0, 640] S65536x320
  slices_S65536x224_S65536x64_0_128 : S65536x224.Slices ![0, 128] S65536x64
  bcast_S_S65536x64 : S_.BroadcastsInDim S65536x64 (![] : Fin 0 → Fin S65536x64.rank)
  shapeCasts_S65536x320_S65536x64x5 : S65536x320.ShapeCasts S65536x64x5
  bcast_S65536x64_S65536x64x1_0_1 : S65536x64.BroadcastsInDim S65536x64x1 (![0, 1] : Fin 2 → Fin S65536x64x1.rank)
  bcast_S65536x64x1_S65536x64x5_0_1_2 : S65536x64x1.BroadcastsInDim S65536x64x5 (![0, 1, 2] : Fin 3 → Fin S65536x64x5.rank)
  shapeCasts_S65536x64x5_S65536x320 : S65536x64x5.ShapeCasts S65536x320
  slices_S65536x1408_S65536x224_0_960 : S65536x1408.Slices ![0, 960] S65536x224
  slices_S65536x224_S65536x32_0_192 : S65536x224.Slices ![0, 192] S65536x32
  bcast_S_S65536x32 : S_.BroadcastsInDim S65536x32 (![] : Fin 0 → Fin S65536x32.rank)
  shapeCasts_S65536x224_S65536x32x7 : S65536x224.ShapeCasts S65536x32x7
  bcast_S65536x32_S65536x32x1_0_1 : S65536x32.BroadcastsInDim S65536x32x1 (![0, 1] : Fin 2 → Fin S65536x32x1.rank)
  bcast_S65536x32x1_S65536x32x7_0_1_2 : S65536x32x1.BroadcastsInDim S65536x32x7 (![0, 1, 2] : Fin 3 → Fin S65536x32x7.rank)
  shapeCasts_S65536x32x7_S65536x224 : S65536x32x7.ShapeCasts S65536x224
  concatenates_S65536x256_S65536x384_S65536x320_S65536x224_S65536x1184_d1 : Shape.Concatenates [S65536x256, S65536x384, S65536x320, S65536x224] S65536x1184 1

variable [Facts₀]

class Facts : Prop extends Facts₀ where

variable [Facts]
-- ==== Proof.LibGate.lean ====
/-
  Gating the groups of a row, read at an entry.

  A row of length C = M * D is M groups of D consecutive entries. Viewed as an [n, M, D] array, multiplied
  entry by entry with an [n, M] array of gates repeated along the last axis, and viewed as [n, C] again, the
  entry at (p, c) is the row's entry at (p, c) times the gate of its group, (p, c / D): column c sits in group
  c / D at place c % D, and (c / D) * D + c % D = c. The lemma is stated in the two spellings the operations have:
  shape casts and a vector broadcast, and shape casts with two broadcast_in_dim operations. Also here: the f32 word
  of 1.0 is the number one, so that 1 / (1 + exp (-x)) written with that word is the logistic function.
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace GateGroups

open Idealize.ShloMosaic Idealize.ShloMosaic.ValueIdx

variable {α : Type}

/-! ## The arithmetic of groups -/

theorem group_lt {M D c : ℕ} (hc : c < M * D) : c / D < M :=
  Nat.div_lt_of_lt_mul (by rw [Nat.mul_comm]; exact hc)

theorem place_lt {M D c : ℕ} (hc : c < M * D) : c % D < D :=
  Nat.mod_lt _ (Nat.pos_of_ne_zero fun h => by subst h; simp at hc)

theorem entry_lt {M D b d : ℕ} (hb : b < M) (hd : d < D) : b * D + d < M * D :=
  calc b * D + d < b * D + D := Nat.add_lt_add_left hd _
    _ = (b + 1) * D := (Nat.succ_mul b D).symm
    _ ≤ M * D := Nat.mul_le_mul_right D hb

/-! ## The layout operations, one at a time -/

/-- [n, C] to [n, M, D]: entry (p, b, d) is the row's entry b * D + d. -/
theorem split_apply {n M D C : ℕ} (hC : C = M * D) (v : (⟨2, ![n, C]⟩ : Shape).Idx → α)
    (h : (⟨2, ![n, C]⟩ : Shape).ShapeCasts ⟨3, ![n, M, D]⟩) (p : Fin n) (b : Fin M) (d : Fin D) :
    shapeCast ⟨3, ![n, M, D]⟩ v h (ix3 p b d) = v (ix2 p ⟨b.val * D + d.val, hC ▸ entry_lt b.isLt d.isLt⟩) :=
  shapeCast_apply v h _ _ (by
    rw [Shape.rowMajor_val_two, Shape.rowMajor_val_three]
    show p.val * C + (b.val * D + d.val) = (p.val * M + b.val) * D + d.val
    subst hC
    rw [Nat.add_mul, Nat.mul_assoc, Nat.add_assoc])

/-- [n, M, D] to [n, C]: entry (p, c) is group c / D's entry at place c % D. -/
theorem merge_apply {n M D C : ℕ} (hC : C = M * D) (w : (⟨3, ![n, M, D]⟩ : Shape).Idx → α)
    (h : (⟨3, ![n, M, D]⟩ : Shape).ShapeCasts ⟨2, ![n, C]⟩) (p : Fin n) (c : Fin C) :
    shapeCast ⟨2, ![n, C]⟩ w h (ix2 p c)
      = w (ix3 p ⟨c.val / D, group_lt (hC ▸ c.isLt)⟩ ⟨c.val % D, place_lt (M := M) (hC ▸ c.isLt)⟩) :=
  shapeCast_apply w h _ _ (by
    rw [Shape.rowMajor_val_two, Shape.rowMajor_val_three]
    show (p.val * M + c.val / D) * D + c.val % D = p.val * C + c.val
    subst hC
    rw [Nat.add_mul, Nat.mul_assoc, Nat.add_assoc, Nat.div_add_mod'])

/-- [n, M] to [n, M, 1] as a shape cast: entry (p, b, 0) is the entry (p, b). -/
theorem unit_cast_apply {n M : ℕ} (g : (⟨2, ![n, M]⟩ : Shape).Idx → α)
    (h : (⟨2, ![n, M]⟩ : Shape).ShapeCasts ⟨3, ![n, M, 1]⟩) (p : Fin n) (b : Fin M) (e : Fin 1) :
    shapeCast ⟨3, ![n, M, 1]⟩ g h (ix3 p b e) = g (ix2 p b) :=
  shapeCast_apply g h _ _ (by
    rw [Shape.rowMajor_val_two, Shape.rowMajor_val_three]
    show p.val * M + b.val = (p.val * M + b.val) * 1 + e.val
    have := e.isLt
    omega)

/-- [n, M] to [n, M, 1] as a broadcast_in_dim along the first two axes. -/
theorem unit_bcast_apply {n M : ℕ} (g : (⟨2, ![n, M]⟩ : Shape).Idx → α)
    (h : (⟨2, ![n, M]⟩ : Shape).BroadcastsInDim ⟨3, ![n, M, 1]⟩ ![0, 1]) (p : Fin n) (b : Fin M) (e : Fin 1) :
    broadcastInDim ⟨3, ![n, M, 1]⟩ ![0, 1] h g (ix3 p b e) = g (ix2 p b) :=
  broadcastInDim_apply _ h g _ _ (fun a => by
    match a with
    | ⟨0, _⟩ =>
      show p.val = if n = 1 then 0 else p.val
      split_ifs with h1
      · have := p.isLt; omega
      · rfl
    | ⟨1, _⟩ =>
      show b.val = if M = 1 then 0 else b.val
      split_ifs with h1
      · have := b.isLt; omega
      · rfl)

/-- [n, M, 1] to [n, M, D] as a vector broadcast: entry (p, b, d) is the entry (p, b, 0). -/
theorem repeat_apply {n M D : ℕ} (u : (⟨3, ![n, M, 1]⟩ : Shape).Idx → α)
    (h : (⟨3, ![n, M, 1]⟩ : Shape).Broadcasts ⟨3, ![n, M, D]⟩) (p : Fin n) (b : Fin M) (d : Fin D) :
    broadcastTo ⟨3, ![n, M, D]⟩ u h (ix3 p b d) = u (ix3 p b 0) :=
  broadcastTo_apply u h _ _ (fun a => by
    match a with
    | ⟨0, _⟩ =>
      show p.val = if n = 1 then 0 else p.val
      split_ifs with h1
      · have := p.isLt; omega
      · rfl
    | ⟨1, _⟩ =>
      show b.val = if M = 1 then 0 else b.val
      split_ifs with h1
      · have := b.isLt; omega
      · rfl
    | ⟨2, _⟩ => rfl)

/-- [n, M, 1] to [n, M, D] as a broadcast_in_dim along all three axes. -/
theorem repeat_bcast_apply {n M D : ℕ} (u : (⟨3, ![n, M, 1]⟩ : Shape).Idx → α)
    (h : (⟨3, ![n, M, 1]⟩ : Shape).BroadcastsInDim ⟨3, ![n, M, D]⟩ ![0, 1, 2]) (p : Fin n) (b : Fin M) (d : Fin D) :
    broadcastInDim ⟨3, ![n, M, D]⟩ ![0, 1, 2] h u (ix3 p b d) = u (ix3 p b 0) :=
  broadcastInDim_apply _ h u _ _ (fun a => by
    match a with
    | ⟨0, _⟩ =>
      show p.val = if n = 1 then 0 else p.val
      split_ifs with h1
      · have := p.isLt; omega
      · rfl
    | ⟨1, _⟩ =>
      show b.val = if M = 1 then 0 else b.val
      split_ifs with h1
      · have := b.isLt; omega
      · rfl
    | ⟨2, _⟩ => rfl)

/-! ## Gating the groups -/

/-- The row's entry at its group and place is the row's entry. -/
theorem regroup {n D C : ℕ} (v : (⟨2, ![n, C]⟩ : Shape).Idx → α) (p : Fin n) (c : Fin C)
    (h : c.val / D * D + c.val % D < C) :
    v (ix2 p ⟨c.val / D * D + c.val % D, h⟩) = v (ix2 p c) :=
  congrArg (fun q => v (ix2 p q)) (Fin.ext (Nat.div_add_mod' c.val D))

/-- Split into groups, times the gates repeated over each group, merged again, with shape casts and a vector
    broadcast: the entry at (p, c) is the row's entry times its group's gate. -/
theorem gated_vector_apply {n M D C : ℕ} (hC : C = M * D)
    (v : FVec Ideal ⟨2, ![n, C]⟩ .f32) (g : FVec Ideal ⟨2, ![n, M]⟩ .f32)
    (h1 : (⟨2, ![n, C]⟩ : Shape).ShapeCasts ⟨3, ![n, M, D]⟩)
    (h2 : (⟨2, ![n, M]⟩ : Shape).ShapeCasts ⟨3, ![n, M, 1]⟩)
    (h3 : (⟨3, ![n, M, 1]⟩ : Shape).Broadcasts ⟨3, ![n, M, D]⟩)
    (h4 : (⟨3, ![n, M, D]⟩ : Shape).ShapeCasts ⟨2, ![n, C]⟩) (p : Fin n) (c : Fin C) :
    shapeCast ⟨2, ![n, C]⟩ (mulf (F := Ideal) (φ := .f32) (shapeCast ⟨3, ![n, M, D]⟩ v h1)
        (broadcastTo ⟨3, ![n, M, D]⟩ (shapeCast ⟨3, ![n, M, 1]⟩ g h2) h3)) h4 (ix2 p c)
      = v (ix2 p c) * g (ix2 p ⟨c.val / D, group_lt (hC ▸ c.isLt)⟩) := by
  rw [merge_apply hC]
  show shapeCast ⟨3, ![n, M, D]⟩ v h1 _ * broadcastTo ⟨3, ![n, M, D]⟩ (shapeCast ⟨3, ![n, M, 1]⟩ g h2) h3 _ = _
  rw [split_apply hC, repeat_apply, unit_cast_apply]
  exact congrArg (· * _) (regroup v p c _)

/-- The same with the gates laid out by two broadcast_in_dim operations. -/
theorem gated_host_apply {n M D C : ℕ} (hC : C = M * D)
    (v : FVec Ideal ⟨2, ![n, C]⟩ .f32) (g : FVec Ideal ⟨2, ![n, M]⟩ .f32)
    (h1 : (⟨2, ![n, C]⟩ : Shape).ShapeCasts ⟨3, ![n, M, D]⟩)
    (h2 : (⟨2, ![n, M]⟩ : Shape).BroadcastsInDim ⟨3, ![n, M, 1]⟩ ![0, 1])
    (h3 : (⟨3, ![n, M, 1]⟩ : Shape).BroadcastsInDim ⟨3, ![n, M, D]⟩ ![0, 1, 2])
    (h4 : (⟨3, ![n, M, D]⟩ : Shape).ShapeCasts ⟨2, ![n, C]⟩) (p : Fin n) (c : Fin C) :
    shapeCast ⟨2, ![n, C]⟩ (mulf (F := Ideal) (φ := .f32) (shapeCast ⟨3, ![n, M, D]⟩ v h1)
        (broadcastInDim ⟨3, ![n, M, D]⟩ ![0, 1, 2] h3 (broadcastInDim ⟨3, ![n, M, 1]⟩ ![0, 1] h2 g))) h4 (ix2 p c)
      = v (ix2 p c) * g (ix2 p ⟨c.val / D, group_lt (hC ▸ c.isLt)⟩) := by
  rw [merge_apply hC]
  show shapeCast ⟨3, ![n, M, D]⟩ v h1 _
      * broadcastInDim ⟨3, ![n, M, D]⟩ ![0, 1, 2] h3 (broadcastInDim ⟨3, ![n, M, 1]⟩ ![0, 1] h2 g) _ = _
  rw [split_apply hC, repeat_bcast_apply, unit_bcast_apply]
  exact congrArg (· * _) (regroup v p c _)

/-! ## The logistic function spelt out -/

/-- The f32 word of 1.0 is the number one. -/
theorem ofBits_one_f32 : Ideal.ofBits .f32 0x3F800000#32 = 1 := by
  simp [Ideal.ofBits, Ideal.ieee, -EReal.coe_mul]; norm_num

/-- 1 / (1 + exp (-x)) in the host's operations, its ones the f32 word of 1.0, is the logistic function of x,
    on every extended real. -/
theorem host_logistic (x : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf x)))
      = Ideal.logistic x := by
  rw [ofBits_one_f32]; rfl

/-- The host's gate, entry by entry: a splat of the word of 1.0 divided by that splat plus exp of the negated
    argument is the logistic function of the argument's entry. -/
theorem host_gate_apply {s : Shape} (hb : (⟨0, ![]⟩ : Shape).BroadcastsInDim s ![]) (y : FVec Ideal s .f32) (i : s.Idx) :
    Host.divf (F := Ideal) (broadcastInDim s ![] hb (constant (F := Ideal) ⟨0, ![]⟩ .f32 0x3F800000#32))
        (addf (broadcastInDim s ![] hb (constant (F := Ideal) ⟨0, ![]⟩ .f32 0x3F800000#32))
          (Host.exp (Host.negf y))) i
      = Ideal.logistic (y i) := by
  show FloatOps.hostDivf (broadcastInDim s ![] hb (constant (F := Ideal) ⟨0, ![]⟩ .f32 0x3F800000#32) i)
      (FloatOps.addf (broadcastInDim s ![] hb (constant (F := Ideal) ⟨0, ![]⟩ .f32 0x3F800000#32) i)
        (FloatOps.hostUnary .exp (FloatOps.hostNegf (y i)))) = _
  rw [broadcastInDim_apply _ hb _ i ix0 (fun a => a.elim0)]
  exact host_logistic (y i)

/-! ## The pieces of a gated row, read at an entry

A row of W features; a piece of the output takes C of its columns from column off on. -/

/-- Rectified columns, the zero a splat of the word of 0.0: max with zero of the row's entry. -/
theorem relu_vector_apply {n W C : ℕ} (off : ℕ) (x : FVec Ideal ⟨2, ![n, W]⟩ .f32)
    (hs : (⟨2, ![n, W]⟩ : Shape).Slices ![0, off] ⟨2, ![n, C]⟩) (p : Fin n) (c : Fin C) (k : Fin W)
    (hk : k.val = off + c.val) :
    maximumf (F := Ideal) (φ := .f32) (extractStridedSlice ⟨2, ![n, C]⟩ ![0, off] x hs)
        (broadcast ⟨2, ![n, C]⟩ (Scalar.ofBits (F := Ideal) .f32 0x00000000#32)) (ix2 p c)
      = max (x (ix2 p k)) 0 := by
  show max (extractStridedSlice ⟨2, ![n, C]⟩ ![0, off] x hs (ix2 p c)) (Ideal.ofBits .f32 0x00000000#32) = _
  rw [slice2_axis1_apply off x hs p c k hk, Ideal.ofBits_zero_f32]

/-- Rectified columns, the zero a broadcast_in_dim of the constant 0.0. -/
theorem relu_host_apply {n W C : ℕ} (off : ℕ) (x : FVec Ideal ⟨2, ![n, W]⟩ .f32)
    (hs : (⟨2, ![n, W]⟩ : Shape).Slices ![0, off] ⟨2, ![n, C]⟩)
    (hb : (⟨0, ![]⟩ : Shape).BroadcastsInDim ⟨2, ![n, C]⟩ ![]) (p : Fin n) (c : Fin C) (k : Fin W)
    (hk : k.val = off + c.val) :
    maximumf (F := Ideal) (φ := .f32) (extractStridedSlice ⟨2, ![n, C]⟩ ![0, off] x hs)
        (broadcastInDim ⟨2, ![n, C]⟩ ![] hb (constant (F := Ideal) ⟨0, ![]⟩ .f32 0x00000000#32)) (ix2 p c)
      = max (x (ix2 p k)) 0 := by
  show max (extractStridedSlice ⟨2, ![n, C]⟩ ![0, off] x hs (ix2 p c))
      (broadcastInDim ⟨2, ![n, C]⟩ ![] hb (constant (F := Ideal) ⟨0, ![]⟩ .f32 0x00000000#32) (ix2 p c)) = _
  rw [slice2_axis1_apply off x hs p c k hk, broadcastInDim_apply _ hb _ (ix2 p c) ix0 (fun a => a.elim0)]
  show max _ (Ideal.ofBits .f32 0x00000000#32) = _
  rw [Ideal.ofBits_zero_f32]

/-- A gated piece in the vector spelling: C = M * D columns from off on, in M groups of D, each group times the
    logistic function of its gate; the gates are M columns from g1 on of the G columns from g0 on. The entry at (p, c) is
    the row's entry at column off + c times the logistic function of its entry at column g0 + (g1 + c / D). -/
theorem gated_piece_vector_apply {n W G M D C : ℕ} (hC : C = M * D) (off g0 g1 : ℕ)
    (x : FVec Ideal ⟨2, ![n, W]⟩ .f32)
    (hs : (⟨2, ![n, W]⟩ : Shape).Slices ![0, off] ⟨2, ![n, C]⟩)
    (hg0 : (⟨2, ![n, W]⟩ : Shape).Slices ![0, g0] ⟨2, ![n, G]⟩)
    (hg1 : (⟨2, ![n, G]⟩ : Shape).Slices ![0, g1] ⟨2, ![n, M]⟩)
    (h1 : (⟨2, ![n, C]⟩ : Shape).ShapeCasts ⟨3, ![n, M, D]⟩)
    (h2 : (⟨2, ![n, M]⟩ : Shape).ShapeCasts ⟨3, ![n, M, 1]⟩)
    (h3 : (⟨3, ![n, M, 1]⟩ : Shape).Broadcasts ⟨3, ![n, M, D]⟩)
    (h4 : (⟨3, ![n, M, D]⟩ : Shape).ShapeCasts ⟨2, ![n, C]⟩) (p : Fin n) (c : Fin C)
    (k : Fin W) (hk : k.val = off + c.val) (kg : Fin W) (hkg : kg.val = g0 + (g1 + c.val / D)) :
    shapeCast ⟨2, ![n, C]⟩ (mulf (F := Ideal) (φ := .f32)
        (shapeCast ⟨3, ![n, M, D]⟩ (extractStridedSlice ⟨2, ![n, C]⟩ ![0, off] x hs) h1)
        (broadcastTo ⟨3, ![n, M, D]⟩ (shapeCast ⟨3, ![n, M, 1]⟩
          (logistic (F := Ideal) (φ := .f32) (extractStridedSlice ⟨2, ![n, M]⟩ ![0, g1]
            (extractStridedSlice ⟨2, ![n, G]⟩ ![0, g0] x hg0) hg1)) h2) h3)) h4 (ix2 p c)
      = x (ix2 p k) * Ideal.logistic (x (ix2 p kg)) := by
  rw [gated_vector_apply hC]
  show extractStridedSlice ⟨2, ![n, C]⟩ ![0, off] x hs (ix2 p c)
      * Ideal.logistic (extractStridedSlice ⟨2, ![n, M]⟩ ![0, g1]
          (extractStridedSlice ⟨2, ![n, G]⟩ ![0, g0] x hg0) hg1 (ix2 p ⟨c.val / D, group_lt (hC ▸ c.isLt)⟩)) = _
  rw [slice2_axis1_apply off x hs p c k hk,
    slice2_axis1_apply g1 _ hg1 p _ ⟨g1 + c.val / D, Nat.lt_of_lt_of_le
      (Nat.add_lt_add_left (group_lt (hC ▸ c.isLt)) g1) (hg1.2 1)⟩ rfl,
    slice2_axis1_apply g0 x hg0 p _ kg hkg]

/-- The same piece in the host's spelling: the gate is 1 / (1 + exp (-y)) with splats of the word of 1.0, laid out by
    two broadcast_in_dim operations. -/
theorem gated_piece_host_apply {n W G M D C : ℕ} (hC : C = M * D) (off g0 g1 : ℕ)
    (x : FVec Ideal ⟨2, ![n, W]⟩ .f32)
    (hs : (⟨2, ![n, W]⟩ : Shape).Slices ![0, off] ⟨2, ![n, C]⟩)
    (hg0 : (⟨2, ![n, W]⟩ : Shape).Slices ![0, g0] ⟨2, ![n, G]⟩)
    (hg1 : (⟨2, ![n, G]⟩ : Shape).Slices ![0, g1] ⟨2, ![n, M]⟩)
    (hb : (⟨0, ![]⟩ : Shape).BroadcastsInDim ⟨2, ![n, M]⟩ ![])
    (h1 : (⟨2, ![n, C]⟩ : Shape).ShapeCasts ⟨3, ![n, M, D]⟩)
    (h2 : (⟨2, ![n, M]⟩ : Shape).BroadcastsInDim ⟨3, ![n, M, 1]⟩ ![0, 1])
    (h3 : (⟨3, ![n, M, 1]⟩ : Shape).BroadcastsInDim ⟨3, ![n, M, D]⟩ ![0, 1, 2])
    (h4 : (⟨3, ![n, M, D]⟩ : Shape).ShapeCasts ⟨2, ![n, C]⟩) (p : Fin n) (c : Fin C)
    (k : Fin W) (hk : k.val = off + c.val) (kg : Fin W) (hkg : kg.val = g0 + (g1 + c.val / D)) :
    shapeCast ⟨2, ![n, C]⟩ (mulf (F := Ideal) (φ := .f32)
        (shapeCast ⟨3, ![n, M, D]⟩ (extractStridedSlice ⟨2, ![n, C]⟩ ![0, off] x hs) h1)
        (broadcastInDim ⟨3, ![n, M, D]⟩ ![0, 1, 2] h3 (broadcastInDim ⟨3, ![n, M, 1]⟩ ![0, 1] h2
          (Host.divf (F := Ideal) (broadcastInDim ⟨2, ![n, M]⟩ ![] hb (constant (F := Ideal) ⟨0, ![]⟩ .f32 0x3F800000#32))
            (addf (broadcastInDim ⟨2, ![n, M]⟩ ![] hb (constant (F := Ideal) ⟨0, ![]⟩ .f32 0x3F800000#32))
              (Host.exp (Host.negf (extractStridedSlice ⟨2, ![n, M]⟩ ![0, g1]
                (extractStridedSlice ⟨2, ![n, G]⟩ ![0, g0] x hg0) hg1)))))))) h4 (ix2 p c)
      = x (ix2 p k) * Ideal.logistic (x (ix2 p kg)) := by
  rw [gated_host_apply hC, host_gate_apply,
    slice2_axis1_apply off x hs p c k hk,
    slice2_axis1_apply g1 _ hg1 p _ ⟨g1 + c.val / D, Nat.lt_of_lt_of_le
      (Nat.add_lt_add_left (group_lt (hC ▸ c.isLt)) g1) (hg1.2 1)⟩ rfl,
    slice2_axis1_apply g0 x hg0 p _ kg hkg]

end GateGroups

end
-- ==== Proof.LibConcat.lean ====
/-
  A concatenation of `[n, ·]` arrays along their columns read at the entry `(e, c)`: the piece whose span of columns
  holds `c` (the widths of the pieces before it add up to `pre`, and `c = pre + j` with `j` inside the piece), read
  at `(e, j)`.
-/
import Idealize.ShloMosaic.Lib.Pipeline.Value
import Idealize.ShloMosaic.Lib.ValueIdx

namespace ConcatCols

open Idealize.ShloMosaic Idealize.ShloMosaic.ValueIdx

/-- Piece `k` of a column concatenation, at `(e, pre + j)`, is the piece at `(e, j)`. -/
theorem concat_cols_apply {α : Type} {n c b' : ℕ} (xs : List ((s : Shape) × (s.Idx → α)))
    (h : Shape.Concatenates (xs.map (·.1)) (⟨2, ![n, c]⟩ : Shape) (1 : Fin 2)) (e : Fin n) (kk : Fin c)
    (k : ℕ) (hk : k < xs.length) (x₁ : (⟨2, ![n, b']⟩ : Shape).Idx → α) (hxk : xs[k] = ⟨(⟨2, ![n, b']⟩ : Shape), x₁⟩)
    (pre : ℕ)
    (hpre : (((xs.take k).map (·.1)).map fun s => if h : s.rank = (⟨2, ![n, c]⟩ : Shape).rank then s.size ((1 : Fin 2).cast h.symm) else 0).sum = pre)
    (j : Fin b') (hj : pre + j.val = kk.val) :
    concatenate (⟨2, ![n, c]⟩ : Shape) (1 : Fin 2) xs h (ix2 e kk) = x₁ (ix2 e j) :=
  concatenate_apply_piece (t := (⟨2, ![n, c]⟩ : Shape)) (1 : Fin 2) xs h (ix2 e kk) k hk (⟨2, ![n, b']⟩ : Shape) x₁ hxk rfl pre hpre (ix2 e j)
    (fun b hb => by
      match b with
      | ⟨0, _⟩ => rfl
      | ⟨1, _⟩ => exact absurd rfl hb)
    (show pre + j.val = kk.val from hj)

end ConcatCols
-- ==== Proof.Spec.lean ====
/-
  The gated block, row by row.

  A feature row has 1408 entries: 1184 entries in four runs — 256 scalars, then 128 groups of 3, 64 groups of 5 and
  32 groups of 7 — followed by 224 gates, one per group (128, 64 and 32 of them, in that order). The output row has the
  1184 entries: a scalar is rectified (max with zero), and an entry of a group is multiplied by the logistic function of
  its group's gate. Group g of a run of groups of size D holds the run's entries g * D .. g * D + D - 1, so the entry c of
  the run belongs to group c / D.
-/
import Idealize.ShloMosaic.PureOps.Ideal
import Idealize.ShloMosaic.Lib.ValueIdx

noncomputable section

namespace GatedBlock

open Idealize.ShloMosaic Idealize.ShloMosaic.ValueIdx

/-- One output row from one feature row: entry q < 256 rectified; entry q of the run starting at 256 (groups of 3),
    640 (groups of 5) or 960 (groups of 7) times the logistic function of its group's gate, the gates starting at
    column 1184 (the first run's), 1184 + 128 and 1184 + 192. -/
def gatedRow (row : Fin 1408 → EReal) (q : Fin 1184) : EReal :=
  if h0 : q.val < 256 then max (row ⟨q.val, by omega⟩) 0
  else if h1 : q.val < 640 then
    row ⟨q.val, by omega⟩ * Ideal.logistic (row ⟨1184 + (0 + (q.val - 256) / 3), by omega⟩)
  else if h2 : q.val < 960 then
    row ⟨q.val, by omega⟩ * Ideal.logistic (row ⟨1184 + (128 + (q.val - 640) / 5), by omega⟩)
  else
    row ⟨q.val, by have := q.isLt; omega⟩
      * Ideal.logistic (row ⟨1184 + (192 + (q.val - 960) / 7), by have := q.isLt; omega⟩)

/-- The whole array: every row gated by itself. -/
def gated (x : (⟨2, ![65536, 1408]⟩ : Shape).Idx → EReal) : (⟨2, ![65536, 1184]⟩ : Shape).Idx → EReal :=
  fun i => gatedRow (fun j => x (ix2 ⟨(i 0).val, (i 0).isLt⟩ j)) ⟨(i 1).val, (i 1).isLt⟩

theorem gated_apply (x : (⟨2, ![65536, 1408]⟩ : Shape).Idx → EReal) (r : Fin 65536) (q : Fin 1184) :
    gated x (ix2 r q) = gatedRow (fun j => x (ix2 r j)) q := rfl

end GatedBlock

end
-- ==== Proof.KernelRow.lean ====
/-
  The kernel's stored value, entry by entry: at local row p and column q of a block, the body's one store holds the
  gated row of the block's row p. The stored value is a concatenation of four runs of columns; the run holding column q
  is read at q less the widths before it: the rectified scalars, or a run of groups times the logistic function of the
  groups' gates.
-/
import proofs.«104773_j87643102642324_1_alg».proof.Proof.Gen.KernelIdeal.Skeleton
import proofs.«104773_j87643102642324_1_alg».proof.Proof.LibGate
import proofs.«104773_j87643102642324_1_alg».proof.Proof.LibConcat
import proofs.«104773_j87643102642324_1_alg».proof.Proof.Spec

noncomputable section

namespace Cert.KernelIdeal.Row

open Cert.KernelIdeal Cert.KernelIdeal.Gen Idealize.ShloMosaic Idealize.ShloMosaic.ValueIdx GateGroups GatedBlock

/-- The body's stored value at (p, q) is the gated row of the loaded block's row p, at q. -/
theorem pay_apply (v0 : Vec Ideal S2048x1408 .f32) (p : Fin 2048) (q : Fin 1184) :
    k0_pay1 (F := Ideal) v0 (ix2 p q) = gatedRow (fun j => v0 (ix2 p j)) q := by
  have hq := q.isLt
  unfold k0_pay1 gatedRow
  dsimp only
  by_cases h0 : q.val < 256
  · rw [dif_pos h0]
    refine (ConcatCols.concat_cols_apply _ _ p q 0 (by show (0 : ℕ) < 4; decide) _ rfl 0 rfl ⟨q.val, h0⟩
      (by show 0 + q.val = q.val; omega)).trans ?_
    exact relu_vector_apply 0 v0 _ p ⟨q.val, h0⟩ ⟨q.val, by omega⟩ (by show q.val = 0 + q.val; omega)
  · rw [dif_neg h0]
    by_cases h1 : q.val < 640
    · rw [dif_pos h1]
      refine (ConcatCols.concat_cols_apply _ _ p q 1 (by show (1 : ℕ) < 4; decide) _ rfl 256 rfl ⟨q.val - 256, by omega⟩
        (by show 256 + (q.val - 256) = q.val; omega)).trans ?_
      exact gated_piece_vector_apply (M := 128) (D := 3) rfl 256 1184 0 v0 _ _ _ _ _ _ _ p ⟨q.val - 256, by omega⟩
        ⟨q.val, by omega⟩ (by show q.val = 256 + (q.val - 256); omega)
        ⟨1184 + (0 + (q.val - 256) / 3), by omega⟩ rfl
    · rw [dif_neg h1]
      by_cases h2 : q.val < 960
      · rw [dif_pos h2]
        refine (ConcatCols.concat_cols_apply _ _ p q 2 (by show (2 : ℕ) < 4; decide) _ rfl 640 rfl ⟨q.val - 640, by omega⟩
          (by show 640 + (q.val - 640) = q.val; omega)).trans ?_
        exact gated_piece_vector_apply (M := 64) (D := 5) rfl 640 1184 128 v0 _ _ _ _ _ _ _ p ⟨q.val - 640, by omega⟩
          ⟨q.val, by omega⟩ (by show q.val = 640 + (q.val - 640); omega)
          ⟨1184 + (128 + (q.val - 640) / 5), by omega⟩ rfl
      · rw [dif_neg h2]
        refine (ConcatCols.concat_cols_apply _ _ p q 3 (by show (3 : ℕ) < 4; decide) _ rfl 960 rfl ⟨q.val - 960, by omega⟩
          (by show 960 + (q.val - 960) = q.val; omega)).trans ?_
        exact gated_piece_vector_apply (M := 32) (D := 7) rfl 960 1184 192 v0 _ _ _ _ _ _ _ p ⟨q.val - 960, by omega⟩
          ⟨q.val, by omega⟩ (by show q.val = 960 + (q.val - 960); omega)
          ⟨1184 + (192 + (q.val - 960) / 7), by omega⟩ rfl

end Cert.KernelIdeal.Row

end
-- ==== Proof.KernelArray.lean ====
/-
  From blocks to the array. Grid point t stages rows 2048 t .. 2048 t + 2047 of the features (all 1408 columns) and
  writes back the same rows of the result (all 1184 columns). The body's stored value at local row p is the gated row of
  the block's row p, which is the features' row 2048 t + p; so what point t writes back is block t of the gated array.
  Row r of the result lies in the block of point r / 2048, so the 32 blocks cover the array and it ends as the gated
  array of the features.
-/
import proofs.«104773_j87643102642324_1_alg».proof.Proof.Gen.KernelIdeal.Value
import proofs.«104773_j87643102642324_1_alg».proof.Proof.KernelRow

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx GatedBlock
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: at point t both windows sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block whose row p is row T * 2048 + p of the array x: the body's stored value at an entry of the block is the
    gated array of x at the entry T * 2048 rows further down. -/
theorem block_apply (v0 : Vec Ideal S2048x1408 .f32) (x : FVec Ideal S65536x1408 .f32) (T : ℕ)
    (hv : ∀ (p : Fin 2048) (k : Fin 1408) (r : Fin 65536), r.val = T * 2048 + p.val → v0 (ix2 p k) = x (ix2 r k))
    (y : S2048x1184.Idx) (i : S65536x1184.Idx) (hi0 : (i 0).val = T * 2048 + (y 0).val) (hi1 : (i 1).val = (y 1).val) :
    k0_pay1 (F := Ideal) v0 y = gated x i := by
  obtain ⟨p, q, rfl⟩ : ∃ (p : Fin 2048) (q : Fin 1184), y = ix2 p q := ⟨y 0, y 1, eq_ix2 y⟩
  obtain ⟨r, q', rfl⟩ : ∃ (r : Fin 65536) (q' : Fin 1184), i = ix2 r q' := ⟨i 0, i 1, eq_ix2 i⟩
  obtain rfl : q' = q := Fin.ext hi1
  rw [Row.pay_apply, gated_apply]
  exact congrArg (fun row => gatedRow row q') (funext fun k => hv p k r hi0)

/-- What point t writes back is block t of the gated array of the features as the region finds them. -/
theorem flushed_eq (c : Dev nD) (t : Fin cfg0.N) :
    (dats m 0 c).flushed 1 t = ((cfg0.win 1).blk t).view.read (Elt Ideal) (gated (V m c main_arg0)) := by
  rw [flushed1]
  unfold out0_1
  rw [View.canon_unit_zero hz]
  simp only [View.ld_unit_zero (S := S2048x1408) hz]
  obtain ⟨e00, e01, e10, e11⟩ := idx_facts t
  funext j
  show k0_pay1 (F := Ideal) (iblk m c 0 t) j = gated (V m c main_arg0) (((cfg0.win 1).blk t).view.emb j)
  refine block_apply (iblk m c 0 t) (V m c main_arg0) t.val ?_ j _ ?_ ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 2048 + 1 * p.val = r.val; omega
    | ⟨1, _⟩ => show win0_0.index t (1 : Fin 2) * 1408 + 1 * k.val = k.val; omega
  · show win0_1.index t (0 : Fin 2) * 2048 + 1 * (j 0).val = t.val * 2048 + (j 0).val; omega
  · show win0_1.index t (1 : Fin 2) * 1184 + 1 * (j 1).val = (j 1).val; omega

/-- An index of the result is in point t's block iff each coordinate is in the block's range on its axis. -/
theorem mem_blk (t : Fin cfg0.N) (i : S65536x1184.Idx) :
    i ∈ ((cfg0.win 1).blk t).view.set ↔ ∀ a : Fin 2, win0_1.index t a * S2048x1184.size a ≤ (i a).val
      ∧ (i a).val < win0_1.index t a * S2048x1184.size a + S2048x1184.size a := by
  show i ∈ ((View.whole main_v0).slice (win0_1.rect t)).set ↔ _
  rw [View.set_slice_whole, Rect.mem_set_unit]
  exact Iff.rfl

/-- Every entry of the result is in some point's block: row r in the block of point r / 2048. -/
theorem cover (i : S65536x1184.Idx) :
    ∃ t : Fin cfg0.N, (cfg0.win 1).flush t = true ∧ i ∈ ((cfg0.win 1).blk t).view.set := by
  have hi0 : (i 0).val < 65536 := (i 0).isLt
  have hi1 : (i 1).val < 1184 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, e10, e11⟩ := idx_facts t
  refine ⟨t, flush0_1 t, ?_⟩
  rw [mem_blk]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 1184 ≤ (i 1).val ∧ (i 1).val < win0_1.index t (1 : Fin 2) * 1184 + 1184
    omega

/-- The result array after the run is the gated array of the features. -/
theorem final (c : Dev nD) :
    (dats m 0 c).arrAt 1 cfg0.N = gated (m ((c : Thread nD τ).loc main_arg0)) :=
  (dats m 0 c).arrAt_eq_of_cover 1 (gated (V m c main_arg0)) (fun t _ => flushed_eq m c t) cover

/-- The kernel's run, read: the result at the gated array of the features, the features unchanged. -/
theorem run : θ_run defs (onTc (τ := τ) (main (F := Ideal))) ⟨m, fun _ => 0, ρ⟩ fun r => ∀ c : Dev nD,
      r.2.mem ((c : Thread nD τ).loc main_v0) = gated (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefRow.lean ====
/-
  The reference's result, entry by entry: at row r and column q it is the gated row of the argument's row r. The result
  is a concatenation of four runs of columns, as the kernel's stored value is; the run holding column q is read at q
  less the widths before it. The reference spells the logistic function out as 1 / (1 + exp (-y)) and lays the gates out
  over their groups by broadcast_in_dim.
-/
import proofs.«104773_j87643102642324_1_alg».proof.Proof.Gen.ReferenceIdeal.Read
import proofs.«104773_j87643102642324_1_alg».proof.Proof.LibGate
import proofs.«104773_j87643102642324_1_alg».proof.Proof.LibConcat
import proofs.«104773_j87643102642324_1_alg».proof.Proof.Spec

noncomputable section

namespace Cert.ReferenceIdeal.Row

open Cert.ReferenceIdeal Cert.ReferenceIdeal.Gen Cert.ReferenceIdeal.Read
open Idealize.ShloMosaic Idealize.ShloMosaic.ValueIdx GateGroups GatedBlock

/-- The reference's last stage at (r, q) is the gated row of the argument's row r, at q. -/
theorem ref_apply (x0 : FVec Ideal S65536x1408 .f32) (r : Fin 65536) (q : Fin 1184) :
    val_main_v42 (F := Ideal) x0 (ix2 r q) = gatedRow (fun j => x0 (ix2 r j)) q := by
  have hq := q.isLt
  unfold val_main_v42 gatedRow
  by_cases h0 : q.val < 256
  · rw [dif_pos h0]
    refine (ConcatCols.concat_cols_apply _ _ r q 0 (by show (0 : ℕ) < 4; decide) _ rfl 0 rfl ⟨q.val, h0⟩
      (by show 0 + q.val = q.val; omega)).trans ?_
    unfold val_main_v2 val_main_v1 val_main_call0_v0 val_main_call0_cst
    exact relu_host_apply 0 x0 _ _ r ⟨q.val, h0⟩ ⟨q.val, by omega⟩ (by show q.val = 0 + q.val; omega)
  · rw [dif_neg h0]
    by_cases h1 : q.val < 640
    · rw [dif_pos h1]
      refine (ConcatCols.concat_cols_apply _ _ r q 1 (by show (1 : ℕ) < 4; decide) _ rfl 256 rfl ⟨q.val - 256, by omega⟩
        (by show 256 + (q.val - 256) = q.val; omega)).trans ?_
      unfold val_main_v15 val_main_v14 val_main_v11 val_main_v13 val_main_v12 val_main_v10 val_main_v9 val_main_v8
        val_main_v7 val_main_v6 val_main_v5 val_main_v4 val_main_v3 val_main_v0 val_main_cst val_main_cst_0
      exact gated_piece_host_apply (M := 128) (D := 3) rfl 256 1184 0 x0 _ _ _ _ _ _ _ _ r ⟨q.val - 256, by omega⟩
        ⟨q.val, by omega⟩ (by show q.val = 256 + (q.val - 256); omega)
        ⟨1184 + (0 + (q.val - 256) / 3), by omega⟩ rfl
    · rw [dif_neg h1]
      by_cases h2 : q.val < 960
      · rw [dif_pos h2]
        refine (ConcatCols.concat_cols_apply _ _ r q 2 (by show (2 : ℕ) < 4; decide) _ rfl 640 rfl ⟨q.val - 640, by omega⟩
          (by show 640 + (q.val - 640) = q.val; omega)).trans ?_
        unfold val_main_v28 val_main_v27 val_main_v24 val_main_v26 val_main_v25 val_main_v23 val_main_v22 val_main_v21
          val_main_v20 val_main_v19 val_main_v18 val_main_v17 val_main_v16 val_main_v0 val_main_cst_1 val_main_cst_2
        exact gated_piece_host_apply (M := 64) (D := 5) rfl 640 1184 128 x0 _ _ _ _ _ _ _ _ r ⟨q.val - 640, by omega⟩
          ⟨q.val, by omega⟩ (by show q.val = 640 + (q.val - 640); omega)
          ⟨1184 + (128 + (q.val - 640) / 5), by omega⟩ rfl
      · rw [dif_neg h2]
        refine (ConcatCols.concat_cols_apply _ _ r q 3 (by show (3 : ℕ) < 4; decide) _ rfl 960 rfl ⟨q.val - 960, by omega⟩
          (by show 960 + (q.val - 960) = q.val; omega)).trans ?_
        unfold val_main_v41 val_main_v40 val_main_v37 val_main_v39 val_main_v38 val_main_v36 val_main_v35 val_main_v34
          val_main_v33 val_main_v32 val_main_v31 val_main_v30 val_main_v29 val_main_v0 val_main_cst_3 val_main_cst_4
        exact gated_piece_host_apply (M := 32) (D := 7) rfl 960 1184 192 x0 _ _ _ _ _ _ _ _ r ⟨q.val - 960, by omega⟩
          ⟨q.val, by omega⟩ (by show q.val = 960 + (q.val - 960); omega)
          ⟨1184 + (192 + (q.val - 960) / 7), by omega⟩ rfl

/-- So the reference's result is the gated block of its argument. -/
theorem ref_eq (x0 : FVec Ideal S65536x1408 .f32) : val_main_v42 (F := Ideal) x0 = gated x0 := by
  funext i
  obtain ⟨r, q, rfl⟩ : ∃ (r : Fin 65536) (q : Fin 1184), i = ix2 r q := ⟨i 0, i 1, eq_ix2 i⟩
  rw [ref_apply, gated_apply]

end Cert.ReferenceIdeal.Row

end
-- ==== Proof.lean ====
/- The gated block: the kernel against its reference, on the extended reals.

   A feature row has 1184 entries followed by 224 gates. The first 256 entries are scalars and are rectified (max with
   zero); the other entries come in groups of 3, 5 and 7 (128, 64 and 32 groups), each group with a gate of its own, and
   every entry of a group is multiplied by the logistic function of the group's gate (GatedBlock.gatedRow, Proof/Spec.lean).
   The kernel does this on blocks of 2048 rows, one block per grid point, with its logistic function one operation; the
   reference does it on the whole array, with the logistic function spelt 1 / (1 + exp (-y)). On the extended reals the two
   spellings are one function of y, infinities included, because the ideal logistic function is defined as that quotient
   and the constant 1.0 is the number one (Proof/LibGate.lean); so the two programs agree on every input, and the
   finiteness of the features is not used.

   Both sides lay the gates out over their groups by reshaping a run of M * D columns to [rows, M, D]: column c of the run
   is entry c % D of group c / D (Proof/LibGate.lean). Proof/KernelRow.lean reads the kernel's stored value at an entry,
   Proof/RefRow.lean the reference's result, both as GatedBlock.gatedRow of the entry's row; Proof/KernelArray.lean puts the
   kernel's 32 blocks together: row r of the result is written by grid point r / 2048.

   The three frames: the two kernels' are the generated ones, the reference's is its generated run with the result
   dropped. The ideal pass rewrote nothing, so the kernel's idealization is its own text read on the extended reals. -/
import proofs.«104773_j87643102642324_1_alg».proof.Defs
import proofs.«104773_j87643102642324_1_alg».proof.Proof.Gen.Kernel
import proofs.«104773_j87643102642324_1_alg».proof.Proof.Gen.Kernel.Skeleton
import proofs.«104773_j87643102642324_1_alg».proof.Proof.Gen.Kernel.Launch
import proofs.«104773_j87643102642324_1_alg».proof.Proof.Gen.Kernel.Points
import proofs.«104773_j87643102642324_1_alg».proof.Proof.Gen.Kernel.Frame
import proofs.«104773_j87643102642324_1_alg».proof.Proof.Gen.KernelIdeal
import proofs.«104773_j87643102642324_1_alg».proof.Proof.Gen.KernelIdeal.Skeleton
import proofs.«104773_j87643102642324_1_alg».proof.Proof.Gen.KernelIdeal.Launch
import proofs.«104773_j87643102642324_1_alg».proof.Proof.Gen.KernelIdeal.Points
import proofs.«104773_j87643102642324_1_alg».proof.Proof.Gen.KernelIdeal.Frame
import proofs.«104773_j87643102642324_1_alg».proof.Proof.Gen.KernelIdeal.Value
import proofs.«104773_j87643102642324_1_alg».proof.Proof.Gen.ReferenceIdeal
import proofs.«104773_j87643102642324_1_alg».proof.Proof.Gen.ReferenceIdeal.Run
import proofs.«104773_j87643102642324_1_alg».proof.Proof.Gen.ReferenceIdeal.Read
import proofs.«104773_j87643102642324_1_alg».proof.Proof.Gen.Pre_finite_inputs
import proofs.«104773_j87643102642324_1_alg».proof.Proof.KernelArray
import proofs.«104773_j87643102642324_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves the features as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves the features as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends as the gated array of the features, block by block, and the
    reference's as the same function of features that agree: every row gated by itself. -/
theorem algebraic : Cert.algebraic_KernelIdeal_ReferenceIdeal := by
  intro m ρ m' ρ' _ hagree
  refine ⟨fun c => GatedBlock.gated (m ((c : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.Row.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
